-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S_ : Shape := ⟨0, ![]⟩

class Facts : Prop where
  bcast_S_S8x3x3 : S_.BroadcastsInDim S8x3x3 (![] : Fin 0 → Fin S8x3x3.rank)
  reducesTo_S8x3x3_S_d0_1_2 : S8x3x3.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part2 {F : FTy → Type} [FloatOps F] (main_arg7 : FVec F S8x4096x3 .f32) (main_v33 : IVec S_ 1) : IVec S_ 1 :=
  let main_v34 : FVec F S8x4096x3 .f32 := Host.absf main_arg7
  let main_cst_12 : FVec F S_ .f32 := constant S_ .f32 0x7F800000#32
  let main_v35 : FVec F S8x4096x3 .f32 := broadcastInDim S8x4096x3 ![] bcast_S_S8x4096x3 main_cst_12
  let main_v36 : IVec S8x4096x3 1 := cmpf .olt main_v34 main_v35
  let main_c_13 : IVec S_ 1 := constantI S_ 1 1#1
  let main_v37 : IVec S_ 1 := (fun x v => Host.reduce IntOp.andi x v reducesTo_S8x4096x3_S_d0_1_2 h_S_) main_v36 main_c_13
  let main_v38 : IVec S_ 1 := andi main_v33 main_v37
  main_v38

def fn_part1 {F : FTy → Type} [FloatOps F] (main_arg4 : FVec F S8x3 .f32) (main_arg5 : FVec F S8 .f32) (main_arg6 : FVec F S8x4096x3 .f32) (main_arg7 : FVec F S8x4096x3 .f32) (main_v13 : IVec S_ 1) (main_v16 : IVec S8x3x3 1) : IVec S_ 1 :=
  let main_c_5 : IVec S_ 1 := constantI S_ 1 1#1
  let main_v17 : IVec S_ 1 := (fun x v => Host.reduce IntOp.andi x v reducesTo_S8x3x3_S_d0_1_2 h_S_) main_v16 main_c_5
  let main_v18 : IVec S_ 1 := andi main_v13 main_v17
  let main_v19 : FVec F S8x3 .f32 := Host.absf main_arg4
  let main_cst_6 : FVec F S_ .f32 := constant S_ .f32 0x7F800000#32
  let main_v20 : FVec F S8x3 .f32 := broadcastInDim S8x3 ![] bcast_S_S8x3 main_cst_6
  let main_v21 : IVec S8x3 1 := cmpf .olt main_v19 main_v20
  let main_c_7 : IVec S_ 1 := constantI S_ 1 1#1
  let main_v22 : IVec S_ 1 := (fun x v => Host.reduce IntOp.andi x v reducesTo_S8x3_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x4096x3 .f32 := Host.absf main_arg6
  let main_cst_10 : FVec F S_ .f32 := constant S_ .f32 0x7F800000#32
  let main_v30 : FVec F S8x4096x3 .f32 := broadcastInDim S8x4096x3 ![] bcast_S_S8x4096x3 main_cst_10
  let main_v31 : IVec S8x4096x3 1 := cmpf .olt main_v29 main_v30
  let main_c_11 : IVec S_ 1 := constantI S_ 1 1#1
  let main_v32 : IVec S_ 1 := (fun x v => Host.reduce IntOp.andi x v reducesTo_S8x4096x3_S_d0_1_2 h_S_) main_v31 main_c_11
  let main_v33 : IVec S_ 1 := andi main_v28 main_v32
  fn_part2 (F := F) main_arg7 main_v33

def fn {F : FTy → Type} [FloatOps F] (main_arg0 : FVec F S8x3x3 .f32) (main_arg1 : FVec F S8x3 .f32) (main_arg2 : FVec F S8 .f32) (main_arg3 : FVec F S8x3x3 .f32) (main_arg4 : FVec F S8x3 .f32) (main_arg5 : FVec F S8 .f32) (main_arg6 : FVec F S8x4096x3 .f32) (main_arg7 : FVec F S8x4096x3 .f32) : IVec S_ 1 :=
  let main_v0 : FVec F S8x3x3 .f32 := Host.absf main_arg0
  let main_cst : FVec F S_ .f32 := constant S_ .f32 0x7F800000#32
  let main_v1 : FVec F S8x3x3 .f32 := broadcastInDim S8x3x3 ![] bcast_S_S8x3x3 main_cst
  let main_v2 : IVec S8x3x3 1 := cmpf .olt main_v0 main_v1
  let main_c : IVec S_ 1 := constantI S_ 1 1#1
  let main_v3 : IVec S_ 1 := (fun x v => Host.reduce IntOp.andi x v reducesTo_S8x3x3_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x3x3 .f32 := Host.absf main_arg3
  let main_cst_4 : FVec F S_ .f32 := constant S_ .f32 0x7F800000#32
  let main_v15 : FVec F S8x3x3 .f32 := broadcastInDim S8x3x3 ![] bcast_S_S8x3x3 main_cst_4
  let main_v16 : IVec S8x3x3 1 := cmpf .olt main_v14 main_v15
  fn_part1 (F := F) main_arg4 main_arg5 main_arg6 main_arg7 main_v13 main_v16
-- ==== Kernel.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S3x3 : Shape := ⟨2, ![3, 3]⟩
abbrev S_ : Shape := ⟨0, ![]⟩
abbrev S1x3x3 : Shape := ⟨3, ![1, 3, 3]⟩
abbrev S8x32x128 : Shape := ⟨3, ![8, 32, 128]⟩
abbrev S8x1x4096 : Shape := ⟨3, ![8, 1, 4096]⟩
abbrev S1x4096x3 : Shape := ⟨3, ![1, 4096, 3]⟩
abbrev S1x512x3 : Shape := ⟨3, ![1, 512, 3]⟩
abbrev S1x32x128 : Shape := ⟨3, ![1, 32, 128]⟩
abbrev S1x1x512 : Shape := ⟨3, ![1, 1, 512]⟩
abbrev S4096x1 : Shape := ⟨2, ![4096, 1]⟩
abbrev S4096x3 : Shape := ⟨2, ![4096, 3]⟩
abbrev S512x3 : Shape := ⟨2, ![512, 3]⟩
abbrev S3x512 : Shape := ⟨2, ![3, 512]⟩
abbrev S512 : Shape := ⟨1, ![512]⟩
abbrev S1x512 : Shape := ⟨2, ![1, 512]⟩
abbrev S4096 : Shape := ⟨1, ![4096]⟩
abbrev S4096x512 : Shape := ⟨2, ![4096, 512]⟩
abbrev S32x128 : Shape := ⟨2, ![32, 128]⟩
abbrev S8x4096 : Shape := ⟨2, ![8, 4096]⟩

abbrev nBuf : Space → Nat
  | .hbm => 54
  | .vmem => 9
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8, .f32⟩
  | .hbm, ⟨3, _⟩ => ⟨S8x3x3, .f32⟩
  | .hbm, ⟨4, _⟩ => ⟨S8x3, .f32⟩
  | .hbm, ⟨5, _⟩ => ⟨S8, .f32⟩
  | .hbm, ⟨6, _⟩ => ⟨S8x4096x3, .f32⟩
  | .hbm, ⟨7, _⟩ => ⟨S8x4096x3, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S8x3x3, .f32⟩
  | .hbm, ⟨16, _⟩ => ⟨S1x3x3, .f32⟩
  | .hbm, ⟨17, _⟩ => ⟨S8x3x3, .f32⟩
  | .hbm, ⟨18, _⟩ => ⟨S8x3x3, .f32⟩
  | .hbm, ⟨19, _⟩ => ⟨S8x3x3, .f32⟩
  | .hbm, ⟨20, _⟩ => ⟨S_, .f32⟩
  | .hbm, ⟨21, _⟩ => ⟨S8, .f32⟩
  | .hbm, ⟨22, _⟩ => ⟨S8x3, .f32⟩
  | .hbm, ⟨23, _⟩ => ⟨S8x3, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x32x128, .f32⟩
  | .hbm, ⟨35, _⟩ => ⟨S8x1x4096, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x512x3, .f32⟩
  | .local _ .vmem, ⟨3, _⟩ => ⟨S1x512x3, .f32⟩
  | .local _ .vmem, ⟨4, _⟩ => ⟨S1x32x128, .f32⟩
  | .local _ .vmem, ⟨5, _⟩ => ⟨S1x32x128, .f32⟩
  | .local _ .vmem, ⟨6, _⟩ => ⟨S1x1x512, .f32⟩
  | .local _ .vmem, ⟨7, _⟩ => ⟨S1x1x512, .f32⟩
  | .local _ .vmem, ⟨8, _⟩ => ⟨S4096x1, .f32⟩
  | _, _ => ⟨S8x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_18 : BitVec 32 := 0#32
  let v54 : BitVec 1 := Scalar.cmpi .ne v53 c0_i32_18
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S8_d1_2 : S8x3x3.ReducesTo [1, 2] S8
  h_S_ : 0 < S_.numel
  reducesTo_S8x3_S8_d1 : S8x3.ReducesTo [1] S8
  reducesTo_S8_S_d0 : S8.ReducesTo [0] S_
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  transposes_S512x3_p1_0_S3x512 : S512x3.Transposes [1, 0] S3x512
  reduces_S3x512_S512 : S3x512.Reduces [0] S512
  shapeCasts_S512_S1x512 : S512.ShapeCasts S1x512
  slices_S3x512_o0_0_S1x512 : S3x512.Slices ![0, 0] S1x512
  slices_S3x512_o1_0_S1x512 : S3x512.Slices ![1, 0] S1x512
  slices_S3x512_o2_0_S1x512 : S3x512.Slices ![2, 0] S1x512
  reduces_S4096x3_S4096 : S4096x3.Reduces [1] S4096
  shapeCasts_S4096_S4096x1 : S4096.ShapeCasts S4096x1
  broadcasts_S4096x1_S4096x512 : S4096x1.Broadcasts S4096x512
  broadcasts_S1x512_S4096x512 : S1x512.Broadcasts S4096x512
  reduces_S4096x512_S4096 : S4096x512.Reduces [1] S4096
  reduces_S4096x512_S512 : S4096x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S4096x1_S32x128 : S4096x1.ShapeCasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  shapeCasts_S8x32x128_S8x4096 : S8x32x128.ShapeCasts S8x4096
  shapeCasts_S8x1x4096_S8x4096 : S8x1x4096.ShapeCasts S8x4096
  reducesTo_S8x4096_S8_d1 : S8x4096.ReducesTo [1] S8
  bcast_S_S8 : S_.BroadcastsInDim S8 (![] : Fin 0 → Fin S8.rank)
  dot_S8x3x3_S8x3x3_S8x3x3_1_1_2_2_0_0_wf : DotDims.WF S8x3x3 S8x3x3 S8x3x3 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x4096x3.size a
  hwx0_1 : ∀ i : grid0.Coords, EltTy.bits .f32 = 32 ∨ (Rect.block (s := S8x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S8x32x128.size a
  hwx0_2 : ∀ i : grid0.Coords, EltTy.bits .f32 = 32 ∨ (Rect.block (s := S8x32x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)

variable [Facts₀]

def dot_S8x3x3_S8x3x3_S8x3x3_1_1_2_2_0_0 : DotDims S8x3x3 S8x3x3 S8x3x3 where
  lhsContracting := [1]
  rhsContracting := [1]
  lhsNonContracting := [2]
  rhsNonContracting := [2]
  lhsBatch := [0]
  rhsBatch := [0]
  wf := dot_S8x3x3_S8x3x3_S8x3x3_1_1_2_2_0_0_wf

abbrev win0_0 : Pipeline.Window sig grid0 :=
  Pipeline.Window.ofSpec (Memref.whole main_arg6) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S3x3 : Shape := ⟨2, ![3, 3]⟩
abbrev S_ : Shape := ⟨0, ![]⟩
abbrev S1x3x3 : Shape := ⟨3, ![1, 3, 3]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8, .f32⟩
  | .hbm, ⟨3, _⟩ => ⟨S8x3x3, .f32⟩
  | .hbm, ⟨4, _⟩ => ⟨S8x3, .f32⟩
  | .hbm, ⟨5, _⟩ => ⟨S8, .f32⟩
  | .hbm, ⟨6, _⟩ => ⟨S8x4096x3, .f32⟩
  | .hbm, ⟨7, _⟩ => ⟨S8x4096x3, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S8x3x3, .f32⟩
  | .hbm, ⟨16, _⟩ => ⟨S1x3x3, .f32⟩
  | .hbm, ⟨17, _⟩ => ⟨S8x3x3, .f32⟩
  | .hbm, ⟨18, _⟩ => ⟨S8x3x3, .f32⟩
  | .hbm, ⟨19, _⟩ => ⟨S8x3x3, .f32⟩
  | .hbm, ⟨20, _⟩ => ⟨S_, .f32⟩
  | .hbm, ⟨21, _⟩ => ⟨S8, .f32⟩
  | .hbm, ⟨22, _⟩ => ⟨S8x3, .f32⟩
  | .hbm, ⟨23, _⟩ => ⟨S8x3, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x4096x3, .f32⟩
  | .hbm, ⟨35, _⟩ => ⟨S_, .f32⟩
  | .hbm, ⟨36, _⟩ => ⟨S8x4096, .f32⟩
  | .hbm, ⟨37, _⟩ => ⟨S8x4096x3, .f32⟩
  | .hbm, ⟨38, _⟩ => ⟨S_, .f32⟩
  | .hbm, ⟨39, _⟩ => ⟨S8x4096, .f32⟩
  | .hbm, ⟨40, _⟩ => ⟨S8x4096x4096, .f32⟩
  | .hbm, ⟨41, _⟩ => ⟨S8x4096x1, .f32⟩
  | .hbm, ⟨42, _⟩ => ⟨S8x1x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S8_d1_2 : S8x3x3.ReducesTo [1, 2] S8
  h_S_ : 0 < S_.numel
  reducesTo_S8x3_S8_d1 : S8x3.ReducesTo [1] S8
  reducesTo_S8_S_d0 : S8.ReducesTo [0] S_
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  dot_S8x3x3_S8x3x3_S8x3x3_1_1_2_2_0_0_wf : DotDims.WF S8x3x3 S8x3x3 S8x3x3 [1] [1] [2] [2] [0] [0]
  dot_S8x4096x3_S8x4096x3_S8x4096x4096_2_2_1_1_0_0_wf : DotDims.WF S8x4096x3 S8x4096x3 S8x4096x4096 [2] [2] [1] [1] [0] [0]

variable [Facts₀]

def dot_S8x3x3_S8x3x3_S8x3x3_1_1_2_2_0_0 : DotDims S8x3x3 S8x3x3 S8x3x3 where
  lhsContracting := [1]
  rhsContracting := [1]
  lhsNonContracting := [2]
  rhsNonContracting := [2]
  lhsBatch := [0]
  rhsBatch := [0]
  wf := dot_S8x3x3_S8x3x3_S8x3x3_1_1_2_2_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The mathematics shared by both programs, over the extended reals.

  Two point clouds X, Y of shape [8, 4096, 3].  For a batch b, the squared distance of row n of X to row m of Y is
  written by the expansion  |x|² + |y|² - 2·⟨x, y⟩.  Its clamped root is  √(max(·, 0)).  The two results are the
  distance of every point of X to its nearest point of Y, and of every point of Y to its nearest point of X.

  The one law that joins the two programs: the clamped root is monotone and fixes +∞, so it passes through a minimum
  taken from +∞ over any finite family (`clampRoot_fold_min`); and a minimum over 4096 columns is the running minimum
  of the minima over eight consecutive tiles of 512 columns (`minUpTo_succ`, `minUpTo_all`).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-! ## The clamped root -/

/-- `√(max(x, 0))` on the extended reals. -/
def clampRoot (x : EReal) : EReal := Ideal.sqrt (max x 0)

/-- The root is monotone on all of the extended reals: below zero it is the bottom, from zero on the real root, and
    it fixes +∞. -/
theorem sqrt_mono : Monotone Ideal.sqrt := by
  intro a b hab
  induction a using EReal.rec with
  | bot => exact bot_le
  | top =>
    have hb : b = ⊤ := top_le_iff.mp hab
    subst hb
    exact le_rfl
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · rw [if_neg hr, if_neg (by linarith : ¬ s < 0)]
        exact EReal.coe_le_coe_iff.mpr (Real.sqrt_le_sqrt hrs)

theorem clampRoot_mono : Monotone clampRoot := fun _ _ h => sqrt_mono (max_le_max h le_rfl)

theorem clampRoot_top : clampRoot ⊤ = ⊤ := by
  unfold clampRoot
  rw [max_eq_left le_top]
  rfl

/-- The clamped root of a minimum taken from +∞ is the minimum, from +∞, of the clamped roots. -/
theorem clampRoot_fold_min {ι : Type} (s : Finset ι) (f : ι → EReal) :
    clampRoot (s.fold min ⊤ f) = s.fold min ⊤ (fun k => clampRoot (f k)) := by
  classical
  refine Finset.induction_on s ?_ ?_
  · simp only [Finset.fold_empty]; exact clampRoot_top
  · intro a s ha ih
    rw [Finset.fold_insert ha, Finset.fold_insert ha, clampRoot_mono.map_min, ih]

/-! ## A minimum over 4096 columns, tile by tile -/

/-- The minimum, from +∞, of `g` over the columns below `512 · k`. -/
def minUpTo (g : Fin 4096 → EReal) (k : ℕ) : EReal :=
  (Finset.univ.filter fun m : Fin 4096 => m.val < 512 * k).fold min ⊤ g

theorem minUpTo_zero (g : Fin 4096 → EReal) : minUpTo g 0 = ⊤ := by
  unfold minUpTo
  rw [Finset.filter_false_of_mem (fun m _ => by omega), Finset.fold_empty]

/-- One more tile: the running minimum against the minimum over tile `k`. -/
theorem minUpTo_succ (g : Fin 4096 → EReal) (k : ℕ) (hk : k < 8) (tile : Fin 512 → EReal)
    (htile : ∀ j : Fin 512, tile j = g ⟨512 * k + j.val, by have := j.isLt; omega⟩) :
    min (minUpTo g k) (Finset.univ.fold min ⊤ tile) = minUpTo g (k + 1) := by
  refine eq_of_forall_le_iff fun c => ?_
  unfold minUpTo
  simp only [le_min_iff, Finset.le_fold_min, le_top, true_and, Finset.mem_filter, Finset.mem_univ, true_imp_iff]
  constructor
  · rintro ⟨h1, h2⟩ m hm
    by_cases hlt : m.val < 512 * k
    · exact h1 m hlt
    · have hj := h2 ⟨m.val - 512 * k, by omega⟩
      rw [htile] at hj
      have e : (⟨512 * k + (m.val - 512 * k), by have := m.isLt; omega⟩ : Fin 4096) = m := Fin.ext (by show 512 * k + (m.val - 512 * k) = m.val; omega)
      rw [e] at hj
      exact hj
  · intro h
    refine ⟨fun m hm => h m (by omega), fun j => ?_⟩
    rw [htile]
    exact h _ (by have := j.isLt; show 512 * k + j.val < 512 * (k + 1); omega)

/-- All eight tiles: the minimum over every column. -/
theorem minUpTo_all (g : Fin 4096 → EReal) : minUpTo g 8 = Finset.univ.fold min ⊤ g := by
  unfold minUpTo
  rw [Finset.filter_true_of_mem (fun m _ => by have := m.isLt; omega)]

/-! ## Squared distances and nearest neighbours -/

/-- The literal `2.0`. -/
def two : EReal := Ideal.ofBits .f32 0x40000000#32

/-- The squared distance of two points of ℝ³ by the expansion `|a|² + |b|² - 2·⟨a, b⟩`. -/
def d2row (a b : Fin 3 → EReal) : EReal :=
  ((∑ d : Fin 3, a d * a d) + ∑ d : Fin 3, b d * b d) - two * ∑ d : Fin 3, a d * b d

/-- A cloud of 8 batches of 4096 points of ℝ³. -/
abbrev Cloud : Type := (⟨3, ![8, 4096, 3]⟩ : Shape).Idx → EReal

/-- Point `n` of batch `b`. -/
def row (X : Cloud) (b : Fin 8) (n : Fin 4096) : Fin 3 → EReal := fun d => X (ix3 b n d)

/-- The squared distance of point `n` of X to point `m` of Y, in batch `b`. -/
def d2 (X Y : Cloud) (b : Fin 8) (n m : Fin 4096) : EReal := d2row (row X b n) (row Y b m)

/-- The distance of point `n` of X to its nearest point of Y. -/
def nearXY (X Y : Cloud) (b : Fin 8) (n : Fin 4096) : EReal :=
  Finset.univ.fold min ⊤ fun m : Fin 4096 => clampRoot (d2 X Y b n m)

/-- The distance of point `m` of Y to its nearest point of X. -/
def nearYX (X Y : Cloud) (b : Fin 8) (m : Fin 4096) : EReal :=
  Finset.univ.fold min ⊤ fun n : Fin 4096 => clampRoot (d2 X Y b n m)

/-- The nearest-neighbour distance from a point of X is the clamped root of the least squared distance. -/
theorem nearXY_eq (X Y : Cloud) (b : Fin 8) (n : Fin 4096) :
    nearXY X Y b n = clampRoot (minUpTo (fun m => d2 X Y b n m) 8) := by
  rw [minUpTo_all, clampRoot_fold_min]; rfl

/-- The same from a point of Y. -/
theorem nearYX_eq (X Y : Cloud) (b : Fin 8) (m : Fin 4096) :
    nearYX X Y b m = clampRoot (Finset.univ.fold min ⊤ fun n : Fin 4096 => d2 X Y b n m) := by
  rw [clampRoot_fold_min]; rfl

/-- The pattern of +∞ denotes +∞, and the zero pattern zero. -/
theorem ofBits_inf : Ideal.ofBits .f32 0x7F800000#32 = (⊤ : EReal) := by
  simp [Ideal.ofBits, Ideal.ieee]

end Cert.Chamfer

end
-- ==== Proof.RefValue.lean ====
/-
  The reference, read at an index.  Its pairwise squared distance at (b, n, m) is the expansion
  `|x|² + |y|² - 2·⟨x, y⟩` of rows n of X and m of Y; its two minima, taken from +∞ along the last and along the
  middle axis of the [8, 4096, 4096] array of clamped roots, are the two nearest-neighbour distances.
-/
import proofs.«148160_j86792699118042_2_alg».proof.Proof.Gen.ReferenceIdeal.Read
import proofs.«148160_j86792699118042_2_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Chamfer

/-- The rows the squared distance at (b, n, m) reads. -/
theorem ix_x (b : Fin 8) (n m : Fin 4096) (k : Fin 3) :
    idx_main_v22 (idx_main_v26 (idx_main_v28 (ix3 b n m))) k = ix3 b n k :=
  funext fun a => Fin.ext (by match a with | ⟨0, _⟩ => rfl | ⟨1, _⟩ => rfl | ⟨2, _⟩ => rfl)
theorem ix_y (b : Fin 8) (n m : Fin 4096) (k : Fin 3) :
    idx_main_v24 (idx_main_v27 (idx_main_v29 (ix3 b n m))) k = ix3 b m k :=
  funext fun a => Fin.ext (by match a with | ⟨0, _⟩ => rfl | ⟨1, _⟩ => rfl | ⟨2, _⟩ => rfl)
theorem ix_l (b : Fin 8) (n m : Fin 4096) (k : Fin 3) : lidx_main_v25 (ix3 b n m) k = ix3 b n k :=
  funext fun a => Fin.ext (by match a with | ⟨0, _⟩ => rfl | ⟨1, _⟩ => rfl | ⟨2, _⟩ => rfl)
theorem ix_r (b : Fin 8) (n m : Fin 4096) (k : Fin 3) : ridx_main_v25 (ix3 b n m) k = ix3 b m k :=
  funext fun a => Fin.ext (by match a with | ⟨0, _⟩ => rfl | ⟨1, _⟩ => rfl | ⟨2, _⟩ => rfl)

/-- The reference's squared distance at (b, n, m). -/
theorem sqdist_apply (x6 x7 : (⟨S8x4096x3, .f32⟩ : BufTy).Contents (Elt Ideal)) (b : Fin 8) (n m : Fin 4096) :
    val_main_v33 (F := Ideal) x6 x7 (ix3 b n m) = d2 x6 x7 b n m := by
  rw [val_main_v33_apply, val_main_v30_apply, val_main_v28_apply, val_main_v26_apply, val_main_v22_apply,
    val_main_v29_apply, val_main_v27_apply, val_main_v24_apply, val_main_v32_apply, val_main_v31_apply,
    val_main_v25_apply]
  simp only [val_main_cst_3_apply, val_main_cst_4_apply, val_main_cst_5_apply, val_main_v21_apply, val_main_v23_apply,
    ix_x, ix_y, ix_l, ix_r, Ideal.subf_def, Ideal.addf_def, Ideal.mulf_def, Ideal.ofBits_def, Ideal.ofBits_zero_f32,
    zero_add]
  rfl

/-- The clamped root of it. -/
theorem dist_apply (x6 x7 : (⟨S8x4096x3, .f32⟩ : BufTy).Contents (Elt Ideal)) (b : Fin 8) (n m : Fin 4096) :
    val_main_v36 (F := Ideal) x6 x7 (ix3 b n m) = clampRoot (d2 x6 x7 b n m) := by
  rw [val_main_v36_apply, val_main_v35_apply, sqdist_apply, val_main_v34_apply, val_main_cst_6_apply]
  simp only [Ideal.hostUnary_sqrt_def, Ideal.maximumf_def, Ideal.ofBits_def, Ideal.ofBits_zero_f32]
  rfl

/-- The minimum along the last axis: the nearest point of Y. -/
theorem near_xy_apply (x6 x7 : (⟨S8x4096x3, .f32⟩ : BufTy).Contents (Elt Ideal)) (b : Fin 8) (n : Fin 4096) :
    val_main_v37 (F := Ideal) x6 x7 (ix2 b n) = nearXY x6 x7 b n := by
  unfold val_main_v37
  refine (Host.reduce_eq_fold_single FloatOps.minimumf _ _ reducesTo_S8x4096x4096_S8x4096_d2 (by decide) h_S_ (ix2 b n)).trans ?_
  unfold nearXY
  show Finset.univ.fold min (Ideal.ofBits .f32 0x7F800000#32) _ = _
  rw [ofBits_inf]
  refine Finset.fold_congr fun k _ => ?_
  refine Eq.trans ?_ (dist_apply x6 x7 b n k)
  exact congrArg (val_main_v36 (F := Ideal) x6 x7)
    (funext fun a => Fin.ext (by match a with | ⟨0, _⟩ => rfl | ⟨1, _⟩ => rfl | ⟨2, _⟩ => rfl))

/-- The minimum along the middle axis: the nearest point of X. -/
theorem near_yx_apply (x6 x7 : (⟨S8x4096x3, .f32⟩ : BufTy).Contents (Elt Ideal)) (b : Fin 8) (m : Fin 4096) :
    val_main_v38 (F := Ideal) x6 x7 (ix2 b m) = nearYX x6 x7 b m := by
  unfold val_main_v38
  refine (Host.reduce_eq_fold_single FloatOps.minimumf _ _ reducesTo_S8x4096x4096_S8x4096_d1 (by decide) h_S_ (ix2 b m)).trans ?_
  unfold nearYX
  show Finset.univ.fold min (Ideal.ofBits .f32 0x7F800000#32) _ = _
  rw [ofBits_inf]
  refine Finset.fold_congr fun k _ => ?_
  refine Eq.trans ?_ (dist_apply x6 x7 b k m)
  exact congrArg (val_main_v36 (F := Ideal) x6 x7)
    (funext fun a => Fin.ext (by match a with | ⟨0, _⟩ => rfl | ⟨1, _⟩ => rfl | ⟨2, _⟩ => rfl))

/-- Both, as whole arrays. -/
theorem near_xy_eq (x6 x7 : (⟨S8x4096x3, .f32⟩ : BufTy).Contents (Elt Ideal)) :
    val_main_v37 (F := Ideal) x6 x7 = fun i => nearXY x6 x7 (i 0) (i 1) :=
  funext fun i => by rw [eq_ix2 i]; exact near_xy_apply x6 x7 _ _
theorem near_yx_eq (x6 x7 : (⟨S8x4096x3, .f32⟩ : BufTy).Contents (Elt Ideal)) :
    val_main_v38 (F := Ideal) x6 x7 = fun i => nearYX x6 x7 (i 0) (i 1) :=
  funext fun i => by rw [eq_ix2 i]; exact near_yx_apply x6 x7 _ _

end Cert.ReferenceIdeal.RefValue

end
-- ==== Proof.KPay.lean ====
/-
  The kernel body's arithmetic, read at an index over the extended reals.

  For a block x of 4096 points of X and a tile y of 512 points of Y, the body forms the [4096, 512] matrix of squared
  distances by the expansion `|x|² + |y|² - 2·⟨x, y⟩`, takes its minimum along each row and along each column (both
  from +∞), keeps the running row minimum in a scratch column, and stores clamped roots.
-/
import proofs.«148160_j86792699118042_2_alg».proof.Proof.Gen.KernelIdeal.Skeleton
import proofs.«148160_j86792699118042_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Pay

open Cert.KernelIdeal Cert.KernelIdeal.Gen
open Idealize.ShloMosaic Idealize.ShloMosaic.ValueIdx Cert.Chamfer

/-! ## Layout operations at an index -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column of 4096 cast to 32 rows of 128 reads, at `(r, l)`, the column at `128·r + l`. -/
theorem shapeCast_col_rows_apply (x : (⟨2, ![4096, 1]⟩ : Shape).Idx → α)
    (h : (⟨2, ![4096, 1]⟩ : Shape).ShapeCasts ⟨2, ![32, 128]⟩) (r : Fin 32) (l : Fin 128) (n : Fin 4096)
    (hn : n.val = 128 * r.val + l.val) :
    shapeCast ⟨2, ![32, 128]⟩ x h (ix2 r l) = x (ix2 n (0 : Fin 1)) :=
  shapeCast_apply x h _ _ (by
    rw [Shape.rowMajor_val_two, Shape.rowMajor_val_two]
    show n.val * 1 + 0 = r.val * 128 + l.val
    omega)

end Layout

/-! ## The four reductions -/

/-- The sum along a row of three. -/
theorem sum_row (v : FVec Ideal S4096x3 .f32) (h : S4096x3.Reduces [1] S4096) (hφ : FKind.Formats .f32)
    (hacc : (0x00000000#32 : BitVec 32) = FKind.add.neutral .f32 hφ) (n : Fin 4096) :
    multiReduction .add [1] S4096 v 0x00000000#32 h hφ hacc (ix1 n) = ∑ d : Fin 3, v (ix2 n d) := by
  refine (Ideal.multiReduction_add_single v 0x00000000#32 h hφ hacc (ix1 n)).trans ?_
  refine Finset.sum_congr rfl fun k _ => ?_
  exact congrArg v (funext fun a => Fin.ext (by match a with | ⟨0, _⟩ => rfl | ⟨1, _⟩ => rfl))

/-- The sum down a column of three. -/
theorem sum_col (v : FVec Ideal S3x512 .f32) (h : S3x512.Reduces [0] S512) (hφ : FKind.Formats .f32)
    (hacc : (0x00000000#32 : BitVec 32) = FKind.add.neutral .f32 hφ) (j : Fin 512) :
    multiReduction .add [0] S512 v 0x00000000#32 h hφ hacc (ix1 j) = ∑ d : Fin 3, v (ix2 d j) := by
  refine (Ideal.multiReduction_add_single v 0x00000000#32 h hφ hacc (ix1 j)).trans ?_
  refine Finset.sum_congr rfl fun k _ => ?_
  exact congrArg v (funext fun a => Fin.ext (by match a with | ⟨0, _⟩ => rfl | ⟨1, _⟩ => rfl))

/-- The minimum, from +∞, along a row of the tile. -/
theorem min_row (v : FVec Ideal S4096x512 .f32) (h : S4096x512.Reduces [1] S4096) (hφ : FKind.Formats .f32)
    (hacc : (0x7F800000#32 : BitVec 32) = FKind.minimumf.neutral .f32 hφ) (n : Fin 4096) :
    multiReduction .minimumf [1] S4096 v 0x7F800000#32 h hφ hacc (ix1 n)
      = Finset.univ.fold min ⊤ (fun j : Fin 512 => v (ix2 n j)) := by
  refine (multiReduction_minimumf_eq_fold v 0x7F800000#32 h hφ hacc (ix1 n)).trans ?_
  refine (h.fold_filter_drop_single FloatOps.minimumf _ v (ix1 n)).trans ?_
  show Finset.univ.fold min (Ideal.ofBits .f32 0x7F800000#32) _ = _
  rw [ofBits_inf]
  refine Finset.fold_congr fun k _ => ?_
  exact congrArg v (funext fun a => Fin.ext (by match a with | ⟨0, _⟩ => rfl | ⟨1, _⟩ => rfl))

/-- The minimum, from +∞, down a column of the tile. -/
theorem min_col (v : FVec Ideal S4096x512 .f32) (h : S4096x512.Reduces [0] S512) (hφ : FKind.Formats .f32)
    (hacc : (0x7F800000#32 : BitVec 32) = FKind.minimumf.neutral .f32 hφ) (j : Fin 512) :
    multiReduction .minimumf [0] S512 v 0x7F800000#32 h hφ hacc (ix1 j)
      = Finset.univ.fold min ⊤ (fun n : Fin 4096 => v (ix2 n j)) := by
  refine (multiReduction_minimumf_eq_fold v 0x7F800000#32 h hφ hacc (ix1 j)).trans ?_
  refine (h.fold_filter_drop_single FloatOps.minimumf _ v (ix1 j)).trans ?_
  show Finset.univ.fold min (Ideal.ofBits .f32 0x7F800000#32) _ = _
  rw [ofBits_inf]
  refine Finset.fold_congr fun k _ => ?_
  exact congrArg v (funext fun a => Fin.ext (by match a with | ⟨0, _⟩ => rfl | ⟨1, _⟩ => rfl))

/-! ## The payloads -/

/-- The tile of Y, cast to a matrix and transposed, reads at `(d, j)` coordinate `d` of point `j`. -/
theorem tile_T_apply (v5 : Vec Ideal S1x512x3 .f32) (h1 : S1x512x3.ShapeCasts S512x3)
    (h2 : S512x3.Transposes [1, 0] S3x512) (d : Fin 3) (j : Fin 512) :
    transpose S3x512 [1, 0] (shapeCast S512x3 v5 h1) h2 (ix2 d j) = v5 (ix3 (0 : Fin 1) j d) :=
  (transpose_ix2_apply _ h2 d j).trans (shapeCast_1ab_ab_apply v5 h1 j d)

/-- The tile of squared distances at `(n, j)`: rows `n` of the block of X and `j` of the tile of Y. -/
theorem pay5_apply (v3 : Vec Ideal S1x4096x3 .f32) (v5 : Vec Ideal S1x512x3 .f32) (n : Fin 4096) (j : Fin 512) :
    k0_pay5 (F := Ideal) v3 v5 (ix2 n j)
      = d2row (fun d => v3 (ix3 (0 : Fin 1) n d)) (fun d => v5 (ix3 (0 : Fin 1) j d)) := by
  unfold k0_pay5 d2row
  simp only [subf_apply, addf_apply, mulf_apply, broadcast_apply, broadcastTo_a1_ab_apply, broadcastTo_1b_ab_apply,
    shapeCast_a_a1_apply, shapeCast_a_1a_apply, slice2_axis1_eq, slice2_axis0_eq, shapeCast_1ab_ab_apply,
    Ideal.ofBits_def, two]
  refine congrArg₂ (· - ·) (congrArg₂ (· + ·) ?_ ?_) (congrArg (_ * ·) ?_)
  · refine (sum_row _ _ _ _ n).trans (Finset.sum_congr rfl fun d _ => ?_)
    exact congrArg₂ (· * ·) (shapeCast_1ab_ab_apply v3 _ n d) (shapeCast_1ab_ab_apply v3 _ n d)
  · refine (sum_col _ _ _ _ j).trans (Finset.sum_congr rfl fun d _ => ?_)
    exact congrArg₂ (· * ·) (tile_T_apply v5 _ _ d j) (tile_T_apply v5 _ _ d j)
  · rw [Fin.sum_univ_three]
    refine congrArg₂ (· + ·) (congrArg₂ (· + ·) (congrArg₂ (· * ·) rfl ?_) (congrArg₂ (· * ·) rfl ?_))
      (congrArg₂ (· * ·) rfl ?_)
    · exact tile_T_apply v5 _ _ _ j
    · exact tile_T_apply v5 _ _ _ j
    · exact tile_T_apply v5 _ _ _ j

/-- The row minima of the tile, as a column. -/
theorem pay6_apply (v3 : Vec Ideal S1x4096x3 .f32) (v5 : Vec Ideal S1x512x3 .f32) (n : Fin 4096) (u : Fin 1) :
    k0_pay6 (F := Ideal) v3 v5 (ix2 n u) = Finset.univ.fold min ⊤ (fun j : Fin 512 => k0_pay5 (F := Ideal) v3 v5 (ix2 n j)) := by
  unfold k0_pay6
  exact (shapeCast_a_a1_apply _ _ n u).trans (min_row _ _ _ _ n)

/-- The column minima of the tile, as a row. -/
theorem pay7_apply (v3 : Vec Ideal S1x4096x3 .f32) (v5 : Vec Ideal S1x512x3 .f32) (u : Fin 1) (j : Fin 512) :
    k0_pay7 (F := Ideal) v3 v5 (ix2 u j) = Finset.univ.fold min ⊤ (fun n : Fin 4096 => k0_pay5 (F := Ideal) v3 v5 (ix2 n j)) := by
  unfold k0_pay7
  exact (shapeCast_a_1a_apply _ _ u j).trans (min_col _ _ _ _ j)

/-- The scratch column's update: the old value against the new row minimum. -/
theorem pay1_eq (v38 : FVec Ideal S4096x1 .f32) (v41 : Vec Ideal S4096x1 .f32) :
    k0_pay1 (F := Ideal) v38 v41 = fun i => min (v41 i) (v38 i) := by
  unfold k0_pay1
  exact shapeCast_self _ _

/-- The scratch column's reset: +∞ everywhere. -/
theorem pay4_eq : (k0_pay4 (F := Ideal) : FVec Ideal S4096x1 .f32) = fun _ => (⊤ : EReal) := by
  unfold k0_pay4
  refine (shapeCast_self _ _).trans ?_
  funext i
  exact ofBits_inf

/-- The stored row of column minima: clamped roots. -/
theorem pay2_apply (v40 : FVec Ideal S1x512 .f32) (u w : Fin 1) (j : Fin 512) :
    k0_pay2 (F := Ideal) v40 (ix3 u w j) = clampRoot (v40 (ix2 w j)) := by
  unfold k0_pay2
  refine (shapeCast_ab_1ab_apply _ _ u w j).trans ?_
  show Ideal.sqrt (max (v40 (ix2 w j)) (Ideal.ofBits .f32 0x00000000#32)) = _
  rw [Ideal.ofBits_zero_f32]
  rfl

/-- The stored block of row minima, 32 rows of 128: clamped roots of the scratch column at `128·r + l`. -/
theorem pay3_apply (v55 : Vec Ideal S4096x1 .f32) (u : Fin 1) (r : Fin 32) (l : Fin 128) (n : Fin 4096)
    (hn : n.val = 128 * r.val + l.val) :
    k0_pay3 (F := Ideal) v55 (ix3 u r l) = clampRoot (v55 (ix2 n (0 : Fin 1))) := by
  unfold k0_pay3
  refine (shapeCast_ab_1ab_apply _ _ u r l).trans ?_
  refine (shapeCast_col_rows_apply _ _ r l n hn).trans ?_
  show Ideal.sqrt (max (v55 (ix2 n (0 : Fin 1))) (Ideal.ofBits .f32 0x00000000#32)) = _
  rw [Ideal.ofBits_zero_f32]
  rfl

end Cert.KernelIdeal.Pay

end
-- ==== Proof.KPieces.lean ====
/-
  What one run of the body leaves behind, as values of its loads.

  At a first tile of a batch the scratch column is reset to +∞ and then lowered by the tile's row minima; at every other
  tile it is lowered from what the previous tile left.  Every tile stores the clamped roots of its column minima; a last
  tile of a batch also stores the clamped roots of the scratch column, laid out as 32 rows of 128.
-/
import proofs.«148160_j86792699118042_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The scratch column -/

/-- First tile of a batch: reset to +∞, then lowered by the tile's row minima. -/
theorem scratch_A (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : cond0_0 i) (hc1 : ¬cond0_1 i) (x0 : Vec F S1x4096x3 .f32) (x1 : Vec F S1x512x3 .f32) :
    sout0_A_0 c i a2 h2 a3 h3 a4 h4 a5 h5 a6 h6 hc0 hc1 x0 x1 = k0_pay1 (k0_pay6 x0 x1) k0_pay4 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S4096x1) hz2, View.readCov_unit_zero (S := S4096x1) _ hz2]
  simp only [View.readAt_eq_ld, h2.read_unread, h3.read_unread, View.ld_unit_zero (S := S1x4096x3) hz3,
    View.ld_unit_zero (S := S1x512x3) hz3]

/-- A middle tile: lowered from what the previous tile left. -/
theorem scratch_B (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : ¬cond0_0 i) (hc1 : ¬cond0_1 i) (x0 : Vec F S1x4096x3 .f32) (x1 : Vec F S1x512x3 .f32) (xs0 : Vec F S4096x1 .f32) :
    sout0_B_0 c i a2 h2 a3 h3 a4 h4 a5 h5 a6 h6 hc0 hc1 x0 x1 xs0 = k0_pay1 (k0_pay6 x0 x1) xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S1x4096x3) hz3,
    View.ld_unit_zero (S := S1x512x3) hz3, View.ld_unit_zero (S := S4096x1) hz2]

/-- A last tile: the same. -/
theorem scratch_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : ¬cond0_0 i) (hc1 : cond0_1 i) (x0 : Vec F S1x4096x3 .f32) (x1 : Vec F S1x512x3 .f32) (xs0 : Vec F S4096x1 .f32) :
    sout0_C_0 c i a2 h2 a3 h3 a4 h4 a5 h5 a6 h6 hc0 hc1 x0 x1 xs0 = k0_pay1 (k0_pay6 x0 x1) xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S1x4096x3) hz3,
    View.ld_unit_zero (S := S1x512x3) hz3, View.ld_unit_zero (S := S4096x1) hz2]

/-! ## The row of column minima (every tile) -/

theorem cols_A (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : cond0_0 i) (hc1 : ¬cond0_1 i) (x0 : Vec F S1x4096x3 .f32) (x1 : Vec F S1x512x3 .f32) :
    out0_A_3 c i a2 h2 a3 h3 a4 h4 a5 h5 a6 h6 hc0 hc1 x0 x1 = k0_pay2 (k0_pay7 x0 x1) := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, View.ld_unit_zero (S := S1x4096x3) hz3,
    View.ld_unit_zero (S := S1x512x3) hz3]

theorem cols_B (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : ¬cond0_0 i) (hc1 : ¬cond0_1 i) (x0 : Vec F S1x4096x3 .f32) (x1 : Vec F S1x512x3 .f32) (xs0 : Vec F S4096x1 .f32) :
    out0_B_3 c i a2 h2 a3 h3 a4 h4 a5 h5 a6 h6 hc0 hc1 x0 x1 xs0 = k0_pay2 (k0_pay7 x0 x1) := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, View.ld_unit_zero (S := S1x4096x3) hz3,
    View.ld_unit_zero (S := S1x512x3) hz3]

theorem cols_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : ¬cond0_0 i) (hc1 : cond0_1 i) (x0 : Vec F S1x4096x3 .f32) (x1 : Vec F S1x512x3 .f32) (xs0 : Vec F S4096x1 .f32) :
    out0_C_3 c i a2 h2 a3 h3 a4 h4 a5 h5 a6 h6 hc0 hc1 x0 x1 xs0 = k0_pay2 (k0_pay7 x0 x1) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, View.ld_unit_zero (S := S1x4096x3) hz3,
    View.ld_unit_zero (S := S1x512x3) hz3]

/-! ## The block of row minima (a last tile) -/

theorem rows_C (c : Dev nD) (i : grid0.Coords) (a2 : Memref sig .tc .vmem S1x4096x3 .f32) (h2 : a2.IsWhole) (a3 : Memref sig .tc .vmem S1x512x3 .f32) (h3 : a3.IsWhole) (a4 : Memref sig .tc .vmem S1x32x128 .f32) (h4 : a4.IsWhole) (a5 : Memref sig .tc .vmem S1x1x512 .f32) (h5 : a5.IsWhole) (a6 : Memref sig .tc .vmem S4096x1 .f32) (h6 : a6.IsWhole) (hc0 : ¬cond0_0 i) (hc1 : cond0_1 i) (x0 : Vec F S1x4096x3 .f32) (x1 : Vec F S1x512x3 .f32) (xs0 : Vec F S4096x1 .f32) :
    out0_C_2 c i a2 h2 a3 h3 a4 h4 a5 h5 a6 h6 hc0 hc1 x0 x1 xs0 = k0_pay3 (k0_pay1 (k0_pay6 x0 x1) xs0) := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz3, View.readCov_unit_zero (S := S4096x1) _ hz2]
  simp only [View.readAt_eq_ld, h2.read_unread, h3.read_unread, h6.read_unread, View.ld_unit_zero (S := S1x4096x3) hz3,
    View.ld_unit_zero (S := S1x512x3) hz3, View.ld_unit_zero (S := S4096x1) hz2]

end Cert.KernelIdeal.Pieces

end
-- ==== Proof.KInv.lean ====
/-
  What the kernel's buffers hold after each grid point, as functions of the two clouds.

  Point t of the 8 × 8 grid works on batch b = t / 8 and on tile t % 8 of Y: its block of X is the whole batch, its tile
  of Y the 512 points from 512·(t % 8).  After it, the scratch column holds, for every point n of X, the least squared
  distance to the points of Y below 512·(t % 8 + 1) (by induction on the point: reset at a first tile, lowered after);
  the stored row holds the nearest-neighbour distances of the tile's 512 points of Y; and after a last tile the stored
  block holds the nearest-neighbour distances of the batch's points of X, 32 rows of 128.
-/
import proofs.«148160_j86792699118042_2_alg».proof.Proof.KPay
import proofs.«148160_j86792699118042_2_alg».proof.Proof.KPieces

noncomputable section

namespace Cert.KernelIdeal.Inv

open Cert.KernelIdeal Cert.KernelIdeal.Gen Cert.KernelIdeal.Pay Cert.KernelIdeal.Pieces
open Idealize.ShloMosaic Idealize.ShloMosaic.TcCoe Idealize.SL.Sem Idealize.ShloMosaic.ValueIdx Cert.Chamfer

variable (m : (ℓ : Loc nD τ sig) → Buf (Elt Ideal) ℓ)

/-- The two clouds as the region finds them. -/
abbrev X (c : Dev nD) : Cloud := V m c main_arg6
abbrev Y (c : Dev nD) : Cloud := V m c main_arg7

/-- The printed index maps over the grid: batch `t / 8`, tile `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-! ## The input blocks -/

/-- The block of X at point `t` is batch `t / 8`. -/
theorem blkX (c : Dev nD) (t : Fin cfg0.N) (u : Fin 1) (n : Fin 4096) (d : Fin 3) (b : Fin 8) (hb : b.val = t.val / 8) :
    (iblk m c 0 t : Vec Ideal S1x4096x3 .f32) (ix3 u n d) = X m c (ix3 b n d) := by
  obtain ⟨e0, e1, e2, -⟩ := idx_facts t
  have hu := u.isLt
  unfold iblk
  rw [View.read_apply]
  show V m c main_arg6 _ = V m c main_arg6 _
  refine congrArg (V m c main_arg6) (funext fun a => Fin.ext ?_)
  match a with
  | ⟨0, _⟩ => show win0_0.index t (0 : Fin 3) * 1 + 1 * u.val = b.val; rw [e0, hb]; omega
  | ⟨1, _⟩ => show win0_0.index t (1 : Fin 3) * 4096 + 1 * n.val = n.val; rw [e1]; omega
  | ⟨2, _⟩ => show win0_0.index t (2 : Fin 3) * 3 + 1 * d.val = d.val; rw [e2]; omega

/-- The tile of Y at point `t` is the 512 points of batch `t / 8` from `512·(t % 8)`. -/
theorem blkY (c : Dev nD) (t : Fin cfg0.N) (u : Fin 1) (j : Fin 512) (d : Fin 3) (b : Fin 8) (hb : b.val = t.val / 8)
    (col : Fin 4096) (hcol : col.val = 512 * (t.val % 8) + j.val) :
    (iblk m c 1 t : Vec Ideal S1x512x3 .f32) (ix3 u j d) = Y m c (ix3 b col d) := by
  obtain ⟨-, -, -, e0, e1, e2, -⟩ := idx_facts t
  have hu := u.isLt
  unfold iblk
  rw [View.read_apply]
  show V m c main_arg7 _ = V m c main_arg7 _
  refine congrArg (V m c main_arg7) (funext fun a => Fin.ext ?_)
  match a with
  | ⟨0, _⟩ => show win0_1.index t (0 : Fin 3) * 1 + 1 * u.val = b.val; rw [e0, hb]; omega
  | ⟨1, _⟩ => show win0_1.index t (1 : Fin 3) * 512 + 1 * j.val = col.val; rw [e1, hcol]; omega
  | ⟨2, _⟩ => show win0_1.index t (2 : Fin 3) * 3 + 1 * d.val = d.val; rw [e2]; omega

/-- So the tile's squared distances are the clouds'. -/
theorem tile_eq (c : Dev nD) (t : Fin cfg0.N) (b : Fin 8) (hb : b.val = t.val / 8) (n : Fin 4096) (j : Fin 512)
    (col : Fin 4096) (hcol : col.val = 512 * (t.val % 8) + j.val) :
    d2row (fun d => (iblk m c 0 t : Vec Ideal S1x4096x3 .f32) (ix3 (0 : Fin 1) n d))
        (fun d => (iblk m c 1 t : Vec Ideal S1x512x3 .f32) (ix3 (0 : Fin 1) j d))
      = d2 (X m c) (Y m c) b n col := by
  unfold d2 row
  exact congrArg₂ d2row (funext fun d => blkX m c t 0 n d b hb) (funext fun d => blkY m c t 0 j d b hb col hcol)

/-! ## One step of the body, over plain vectors -/

/-- The scratch column lowered by a tile's row minima. -/
theorem lowered_apply (x0 : Vec Ideal S1x4096x3 .f32) (x1 : Vec Ideal S1x512x3 .f32) (xs : Vec Ideal S4096x1 .f32)
    (n : Fin 4096) (u : Fin 1) :
    k0_pay1 (F := Ideal) (k0_pay6 x0 x1) xs (ix2 n u)
      = min (xs (ix2 n u)) (Finset.univ.fold min ⊤ fun j : Fin 512 =>
          d2row (fun d => x0 (ix3 (0 : Fin 1) n d)) (fun d => x1 (ix3 (0 : Fin 1) j d))) := by
  rw [pay1_eq]
  show min (xs (ix2 n u)) (k0_pay6 (F := Ideal) x0 x1 (ix2 n u)) = _
  rw [pay6_apply]
  exact congrArg (min _) (Finset.fold_congr fun j _ => pay5_apply x0 x1 n j)

/-- The stored row: clamped roots of a tile's column minima. -/
theorem colmin_apply (x0 : Vec Ideal S1x4096x3 .f32) (x1 : Vec Ideal S1x512x3 .f32) (u w : Fin 1) (j : Fin 512) :
    k0_pay2 (F := Ideal) (k0_pay7 x0 x1) (ix3 u w j)
      = clampRoot (Finset.univ.fold min ⊤ fun n : Fin 4096 =>
          d2row (fun d => x0 (ix3 (0 : Fin 1) n d)) (fun d => x1 (ix3 (0 : Fin 1) j d))) := by
  rw [pay2_apply, pay7_apply]
  exact congrArg clampRoot (Finset.fold_congr fun n _ => pay5_apply x0 x1 n j)

/-! ## The same at a grid point -/

theorem lowered_blk (c : Dev nD) (t : Fin cfg0.N) (b : Fin 8) (hb : b.val = t.val / 8) (xs : Vec Ideal S4096x1 .f32)
    (n : Fin 4096) (u : Fin 1)
    (hxs : xs (ix2 n u) = minUpTo (fun col => d2 (X m c) (Y m c) b n col) (t.val % 8)) :
    k0_pay1 (F := Ideal) (k0_pay6 (iblk m c 0 t) (iblk m c 1 t)) xs (ix2 n u)
      = minUpTo (fun col => d2 (X m c) (Y m c) b n col) (t.val % 8 + 1) := by
  refine (lowered_apply (iblk m c 0 t) (iblk m c 1 t) xs n u).trans ?_
  rw [hxs]
  refine minUpTo_succ _ (t.val % 8) (by omega) _ fun j => ?_
  exact tile_eq m c t b hb n j _ rfl

theorem colmin_blk (c : Dev nD) (t : Fin cfg0.N) (b : Fin 8) (hb : b.val = t.val / 8) (u w : Fin 1) (j : Fin 512)
    (col : Fin 4096) (hcol : col.val = 512 * (t.val % 8) + j.val) :
    k0_pay2 (F := Ideal) (k0_pay7 (iblk m c 0 t) (iblk m c 1 t)) (ix3 u w j) = nearYX (X m c) (Y m c) b col := by
  refine (colmin_apply (iblk m c 0 t) (iblk m c 1 t) u w j).trans ?_
  rw [nearYX_eq]
  exact congrArg clampRoot (Finset.fold_congr fun n _ => tile_eq m c t b hb n j col hcol)

/-! ## The scratch column after each point -/

theorem scratch_inv (c : Dev nD) (n : Fin 4096) (u : Fin 1) : ∀ (k : ℕ) (hk : k < cfg0.N) (b : Fin 8) (hb : b.val = k / 8),
    (outsAt0 m c k hk).2.2 (ix2 n u) = minUpTo (fun col => d2 (X m c) (Y m c) b n col) (k % 8 + 1) := by
  intro k
  induction k with
  | zero =>
    intro hk b hb
    refine (congrFun (congrArg (fun p => p.2.2) (outsAt0_A m c ⟨0, hk⟩ (Nat.zero_mod 8) (by show ¬ (0 : ℕ) % 8 = 7; decide))) (ix2 n u)).trans ?_
    dsimp only
    rw [scratch_A]
    refine lowered_blk m c ⟨0, hk⟩ b hb _ n u ?_
    rw [pay4_eq]
    exact (minUpTo_zero _).symm
  | succ k ih =>
    intro hk b hb
    have hN : cfg0.N = 64 := N_0
    by_cases h0 : (k + 1) % 8 = 0
    · have h1 : ¬ (k + 1) % 8 = 7 := by omega
      refine (congrFun (congrArg (fun p => p.2.2) (outsAt0_A m c ⟨k + 1, hk⟩ h0 h1)) (ix2 n u)).trans ?_
      dsimp only
      rw [scratch_A]
      refine lowered_blk m c ⟨k + 1, hk⟩ b hb _ n u ?_
      rw [pay4_eq]
      show (⊤ : EReal) = minUpTo _ ((k + 1) % 8)
      rw [h0, minUpTo_zero]
    · have hk' : k < cfg0.N := Nat.lt_of_succ_lt hk
      have hb' : b.val = k / 8 := by omega
      have hprev := ih hk' b hb'
      have hmod : k % 8 + 1 = (k + 1) % 8 := by omega
      by_cases h1 : (k + 1) % 8 = 7
      · refine (congrFun (congrArg (fun p => p.2.2) (outsAt0_C m c ⟨k + 1, hk⟩ h0 h1)) (ix2 n u)).trans ?_
        dsimp only
        rw [scratch_C]
        refine lowered_blk m c ⟨k + 1, hk⟩ b hb _ n u ?_
        show _ = minUpTo _ ((k + 1) % 8)
        rw [← hmod]
        exact hprev
      · refine (congrFun (congrArg (fun p => p.2.2) (outsAt0_B m c ⟨k + 1, hk⟩ h0 h1)) (ix2 n u)).trans ?_
        dsimp only
        rw [scratch_B]
        refine lowered_blk m c ⟨k + 1, hk⟩ b hb _ n u ?_
        show _ = minUpTo _ ((k + 1) % 8)
        rw [← hmod]
        exact hprev

/-! ## The stored row after each point -/

theorem cols_inv (c : Dev nD) (t : Fin cfg0.N) (b : Fin 8) (hb : b.val = t.val / 8) (u w : Fin 1) (j : Fin 512)
    (col : Fin 4096) (hcol : col.val = 512 * (t.val % 8) + j.val) :
    (outsAt0 m c t.val t.isLt).2.1 (ix3 u w j) = nearYX (X m c) (Y m c) b col := by
  have hN : cfg0.N = 64 := N_0
  by_cases h0 : t.val % 8 = 0
  · have h1 : ¬ t.val % 8 = 7 := by omega
    refine (congrFun (congrArg (fun p => p.2.1) (outsAt0_A m c t h0 h1)) (ix3 u w j)).trans ?_
    dsimp only
    rw [cols_A]
    exact colmin_blk m c t b hb u w j col hcol
  · by_cases h1 : t.val % 8 = 7
    · refine (congrFun (congrArg (fun p => p.2.1) (outsAt0_C m c t h0 h1)) (ix3 u w j)).trans ?_
      dsimp only
      rw [cols_C]
      exact colmin_blk m c t b hb u w j col hcol
    · refine (congrFun (congrArg (fun p => p.2.1) (outsAt0_B m c t h0 h1)) (ix3 u w j)).trans ?_
      dsimp only
      rw [cols_B]
      exact colmin_blk m c t b hb u w j col hcol

/-! ## The stored block after a last tile -/

theorem rows_inv (c : Dev nD) (t : Fin cfg0.N) (h7 : t.val % 8 = 7) (b : Fin 8) (hb : b.val = t.val / 8) (u : Fin 1)
    (r : Fin 32) (l : Fin 128) (n : Fin 4096) (hn : n.val = 128 * r.val + l.val) :
    (outsAt0 m c t.val t.isLt).1 (ix3 u r l) = nearXY (X m c) (Y m c) b n := by
  have h0 : ¬ t.val % 8 = 0 := by omega
  have hs := scratch_inv m c n 0 t.val t.isLt b hb
  rw [h7] at hs
  have e2 := congrFun (congrArg (fun p => p.2.2) (outsAt0_C m c t h0 h7)) (ix2 n (0 : Fin 1))
  dsimp only at e2
  rw [scratch_C] at e2
  refine (congrFun (congrArg (fun p => p.1) (outsAt0_C m c t h0 h7)) (ix3 u r l)).trans ?_
  dsimp only
  rw [rows_C, pay3_apply _ u r l n hn, nearXY_eq, ← e2, hs]

end Cert.KernelIdeal.Inv

end
-- ==== Proof.KFinal.lean ====
/-
  The kernel's two result arrays after the run.

  The [8, 32, 128] array is written once per batch, by the batch's last tile: entry (b, r, l) is the distance of point
  128·r + l of X to its nearest point of Y.  The [8, 1, 4096] array is written by every point, tile t % 8 of batch t / 8:
  entry (b, 0, m) is the distance of point m of Y to its nearest point of X.  Reshaped to [8, 4096], they are the two
  arrays of nearest-neighbour distances.
-/
import proofs.«148160_j86792699118042_2_alg».proof.Proof.KInv

noncomputable section

namespace Cert.KernelIdeal.Final

open Cert.KernelIdeal Cert.KernelIdeal.Gen Cert.KernelIdeal.Inv
open Idealize.ShloMosaic Idealize.ShloMosaic.TcCoe Idealize.SL.Sem Idealize.ShloMosaic.ValueIdx Cert.Chamfer
open Idealize.ShloMosaic.Pipeline (Dat)

variable (m : (ℓ : Loc nD τ sig) → Buf (Elt Ideal) ℓ)

/-- The point of X at row `r`, lane `l` of the 32 × 128 layout. -/
def rowOf (r : Fin 32) (l : Fin 128) : Fin 4096 := ⟨128 * r.val + l.val, by have := r.isLt; have := l.isLt; omega⟩

/-- What the [8, 32, 128] array ends holding. -/
def GX (c : Dev nD) : S8x32x128.Idx → EReal := fun i => nearXY (X m c) (Y m c) (i 0) (rowOf (i 1) (i 2))
/-- What the [8, 1, 4096] array ends holding. -/
def GY (c : Dev nD) : S8x1x4096.Idx → EReal := fun i => nearYX (X m c) (Y m c) (i 0) (i 2)

/-! ## The invariants at a general block index -/

theorem rows_at (c : Dev nD) (t : Fin cfg0.N) (h7 : t.val % 8 = 7) (b : Fin 8) (hb : b.val = t.val / 8)
    (y : S1x32x128.Idx) (n : Fin 4096) (hn : n.val = 128 * (y 1).val + (y 2).val) :
    (outsAt0 m c t.val t.isLt).1 y = nearXY (X m c) (Y m c) b n := by
  rw [eq_ix3 y]
  exact rows_inv m c t h7 b hb (y 0) (y 1) (y 2) n hn

theorem cols_at (c : Dev nD) (t : Fin cfg0.N) (b : Fin 8) (hb : b.val = t.val / 8)
    (y : S1x1x512.Idx) (col : Fin 4096) (hcol : col.val = 512 * (t.val % 8) + (y 2).val) :
    (outsAt0 m c t.val t.isLt).2.1 y = nearYX (X m c) (Y m c) b col := by
  rw [eq_ix3 y]
  exact cols_inv m c t b hb (y 0) (y 1) (y 2) col hcol

/-! ## The [8, 32, 128] array -/

/-- What a last tile writes back is its block of `GX`. -/
theorem flushedX_eq (c : Dev nD) (t : Fin cfg0.N) (hf : (cfg0.win 2).flush t = true) :
    (dats m 0 c).flushed 2 t = ((cfg0.win 2).blk t).view.read (Elt Ideal) (GX m c) := by
  have h7 : t.val % 8 = 7 := (flush0_2 t).mp hf
  obtain ⟨-, -, -, -, -, -, e0, e1, e2, -⟩ := idx_facts t
  show (cfg0.win 2).cut (grid0.coords t) ((dats m 0 c).after 2 t) = _
  rw [after0_2]
  funext y
  have hy0 : (y 0).val < 1 := (y 0).isLt
  show (outsAt0 m c t.val t.isLt).1 ((cfg0.win 2).xinj (grid0.coords t) y) = GX m c (((cfg0.win 2).blk t).view.emb y)
  unfold GX
  refine rows_at m c t h7 _ ?_ _ _ ?_
  · show win0_2.index t (0 : Fin 3) * 1 + 1 * (y 0).val = t.val / 8
    rw [e0]; omega
  · show 128 * (win0_2.index t (1 : Fin 3) * 32 + 1 * (y 1).val) + (win0_2.index t (2 : Fin 3) * 128 + 1 * (y 2).val)
      = 128 * (y 1).val + (y 2).val
    rw [e1, e2]; omega

theorem mem_blkX (t : Fin cfg0.N) (i : S8x32x128.Idx) :
    i ∈ ((cfg0.win 2).blk t).view.set ↔ ∀ a : Fin 3, win0_2.index t a * S1x32x128.size a ≤ (i a).val
      ∧ (i a).val < win0_2.index t a * S1x32x128.size a + S1x32x128.size a := by
  show i ∈ ((View.whole main_v21_0).slice (win0_2.rect t)).set ↔ _
  rw [View.set_slice_whole, Rect.mem_set_unit]
  exact Iff.rfl

/-- Every entry lies in the block of its batch's last tile. -/
theorem coverX (i : S8x32x128.Idx) :
    ∃ t : Fin cfg0.N, (cfg0.win 2).flush t = true ∧ i ∈ ((cfg0.win 2).blk t).view.set := by
  have hN : cfg0.N = 64 := N_0
  have hi0 : (i 0).val < 8 := (i 0).isLt
  have hi1 : (i 1).val < 32 := (i 1).isLt
  have hi2 : (i 2).val < 128 := (i 2).isLt
  obtain ⟨t, ht⟩ : ∃ t : Fin cfg0.N, t.val = 8 * (i 0).val + 7 := ⟨⟨8 * (i 0).val + 7, by omega⟩, rfl⟩
  obtain ⟨-, -, -, -, -, -, e0, e1, e2, -⟩ := idx_facts t
  refine ⟨t, (flush0_2 t).mpr (by omega), ?_⟩
  rw [mem_blkX]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 32 ≤ (i 1).val ∧ (i 1).val < win0_2.index t (1 : Fin 3) * 32 + 32
    rw [e1]; omega
  | ⟨2, _⟩ =>
    show win0_2.index t (2 : Fin 3) * 128 ≤ (i 2).val ∧ (i 2).val < win0_2.index t (2 : Fin 3) * 128 + 128
    rw [e2]; omega

theorem finalX (c : Dev nD) : (dats m 0 c).arrAt 2 cfg0.N = GX m c :=
  (dats m 0 c).arrAt_eq_of_cover 2 (GX m c) (flushedX_eq m c) coverX

/-! ## The [8, 1, 4096] array -/

/-- What every point writes back is its block of `GY`. -/
theorem flushedY_eq (c : Dev nD) (t : Fin cfg0.N) :
    (dats m 0 c).flushed 3 t = ((cfg0.win 3).blk t).view.read (Elt Ideal) (GY m c) := by
  obtain ⟨-, -, -, -, -, -, -, -, -, e0, e1, e2⟩ := idx_facts t
  show (cfg0.win 3).cut (grid0.coords t) ((dats m 0 c).after 3 t) = _
  rw [after0_3]
  funext y
  have hy0 : (y 0).val < 1 := (y 0).isLt
  show (outsAt0 m c t.val t.isLt).2.1 ((cfg0.win 3).xinj (grid0.coords t) y) = GY m c (((cfg0.win 3).blk t).view.emb y)
  unfold GY
  refine cols_at m c t _ ?_ _ _ ?_
  · show win0_3.index t (0 : Fin 3) * 1 + 1 * (y 0).val = t.val / 8
    rw [e0]; omega
  · show win0_3.index t (2 : Fin 3) * 512 + 1 * (y 2).val = 512 * (t.val % 8) + (y 2).val
    rw [e2]; omega

theorem mem_blkY (t : Fin cfg0.N) (i : S8x1x4096.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v21_1).slice (win0_3.rect t)).set ↔ _
  rw [View.set_slice_whole, Rect.mem_set_unit]
  exact Iff.rfl

/-- Every entry lies in the block of its batch and tile. -/
theorem coverY (i : S8x1x4096.Idx) :
    ∃ t : Fin cfg0.N, (cfg0.win 3).flush t = true ∧ i ∈ ((cfg0.win 3).blk t).view.set := by
  have hN : cfg0.N = 64 := N_0
  have hi0 : (i 0).val < 8 := (i 0).isLt
  have hi1 : (i 1).val < 1 := (i 1).isLt
  have hi2 : (i 2).val < 4096 := (i 2).isLt
  obtain ⟨t, ht⟩ : ∃ t : Fin cfg0.N, t.val = 8 * (i 0).val + (i 2).val / 512 := ⟨⟨8 * (i 0).val + (i 2).val / 512, by omega⟩, rfl⟩
  obtain ⟨-, -, -, -, -, -, -, -, -, e0, e1, e2⟩ := idx_facts t
  refine ⟨t, flush0_3 t, ?_⟩
  rw [mem_blkY]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 512 ≤ (i 2).val ∧ (i 2).val < win0_3.index t (2 : Fin 3) * 512 + 512
    rw [e2]; omega

theorem finalY (c : Dev nD) : (dats m 0 c).arrAt 3 cfg0.N = GY m c :=
  (dats m 0 c).arrAt_eq_of_cover 3 (GY m c) (fun t _ => flushedY_eq m c t) coverY

/-! ## Reshaped to [8, 4096] -/

/-- The [8, 32, 128] array read as [8, 4096]: the nearest-neighbour distances of X. -/
theorem reshapeX (c : Dev nD) (h : S8x32x128.ShapeCasts S8x4096) :
    shapeCast S8x4096 (GX m c) h = fun i => nearXY (X m c) (Y m c) (i 0) (i 1) := by
  funext i
  rw [eq_ix2 i]
  have hn : (i 1).val < 4096 := (i 1).isLt
  refine (shapeCast_apply (GX m c) h (ix2 (i 0) (i 1))
    (ix3 (i 0) (⟨(i 1).val / 128, by omega⟩ : Fin 32) (⟨(i 1).val % 128, by omega⟩ : Fin 128)) (by
      rw [Shape.rowMajor_val_three, Shape.rowMajor_val_two]
      show ((i 0).val * 32 + (i 1).val / 128) * 128 + (i 1).val % 128 = (i 0).val * 4096 + (i 1).val
      omega)).trans ?_
  unfold GX
  exact congrArg (nearXY (X m c) (Y m c) (i 0)) (Fin.ext (by
    show 128 * ((i 1).val / 128) + (i 1).val % 128 = (i 1).val
    omega))

/-- The [8, 1, 4096] array read as [8, 4096]: the nearest-neighbour distances of Y. -/
theorem reshapeY (c : Dev nD) (h : S8x1x4096.ShapeCasts S8x4096) :
    shapeCast S8x4096 (GY m c) h = fun i => nearYX (X m c) (Y m c) (i 0) (i 1) := by
  funext i
  rw [eq_ix2 i]
  refine (shapeCast_apply (GY m c) h (ix2 (i 0) (i 1)) (ix3 (i 0) (0 : Fin 1) (i 1)) (by
      rw [Shape.rowMajor_val_three, Shape.rowMajor_val_two]
      show ((i 0).val * 1 + 0) * 4096 + (i 1).val = (i 0).val * 4096 + (i 1).val
      omega)).trans ?_
  rfl

end Cert.KernelIdeal.Final

end
-- ==== Proof.Tail.lean ====
/-
  The arithmetic both programs apply to the two [8, 4096] arrays of nearest-neighbour distances: the mean of each over
  its 4096 entries, per batch, the two means added, and the mean of that over the 8 batches.  It is one function of the
  two arrays; neither program's proof opens it.
-/
import Idealize.ShloMosaic.PureOps.Ideal

noncomputable section

namespace Cert.Chamfer

open Idealize.ShloMosaic

abbrev SBN : Shape := ⟨2, ![8, 4096]⟩
abbrev SB : Shape := ⟨1, ![8]⟩
abbrev S0 : Shape := ⟨0, ![]⟩

theorem t_red1 : SBN.ReducesTo [1] SB := by decide
theorem t_red0 : SB.ReducesTo [0] S0 := by decide
theorem t_pos : 0 < S0.numel := by decide
theorem t_bc : S0.BroadcastsInDim SB (![] : Fin 0 → Fin SB.rank) := by decide

/-- The two per-batch means over 4096 entries, added, then the mean over the 8 batches. -/
def meanOfMeans (a b : FVec Ideal SBN .f32) : FVec Ideal S0 .f32 :=
  Host.divf (F := Ideal)
    (Host.reduceAdd (F := Ideal)
      (addf (F := Ideal)
        (Host.divf (F := Ideal)
          (Host.reduceAdd (F := Ideal) a (constant (F := Ideal) S0 .f32 0x00000000#32) t_red1 t_pos)
          (broadcastInDim SB ![] t_bc (constant (F := Ideal) S0 .f32 0x45800000#32)))
        (Host.divf (F := Ideal)
          (Host.reduceAdd (F := Ideal) b (constant (F := Ideal) S0 .f32 0x00000000#32) t_red1 t_pos)
          (broadcastInDim SB ![] t_bc (constant (F := Ideal) S0 .f32 0x45800000#32))))
      (constant (F := Ideal) S0 .f32 0x00000000#32) t_red0 t_pos)
    (constant (F := Ideal) S0 .f32 0x41000000#32)

end Cert.Chamfer

end
-- ==== Proof.KRun.lean ====
/-
  The kernel program's run, read.  Before the region the host computes the registration term; the region leaves the two
  arrays of nearest-neighbour distances; after it the host reshapes both to [8, 4096], takes the mean of means, and adds
  the registration term.  So the three results are: the sum, the registration term, and the mean of means of the
  nearest-neighbour distances.
-/
import proofs.«148160_j86792699118042_2_alg».proof.Proof.KFinal
import proofs.«148160_j86792699118042_2_alg».proof.Proof.Tail
import Idealize.ShloMosaic.Lib.StableHlo.Run

noncomputable section

namespace Cert.KernelIdeal.Run

open Cert.KernelIdeal Cert.KernelIdeal.Gen Cert.KernelIdeal.Inv Cert.KernelIdeal.Final
open Idealize.ShloMosaic Idealize.ShloMosaic.TcCoe Idealize.SL.Sem Idealize.ShloMosaic.ValueIdx Cert.Chamfer
open Idealize.ShloMosaic.StableHlo
open Idealize.ShloMosaic.Pipeline (Dat)

variable (m : (ℓ : Loc nD τ sig) → Buf (Elt Ideal) ℓ) (ρ : Dev nD → PrngReg)

/-- The nearest-neighbour distances of the points of X, and of the points of Y, as [8, 4096] arrays. -/
def NXY (c : Dev nD) : FVec Ideal SBN .f32 := fun i => nearXY (X m c) (Y m c) (i 0) (i 1)
def NYX (c : Dev nD) : FVec Ideal SBN .f32 := fun i => nearYX (X m c) (Y m c) (i 0) (i 1)

/-- The registration term, as the host leaves it before the region. -/
abbrev LR (c : Dev nD) : FVec Ideal S0 .f32 := V m c main_v20

/-- The region's two arrays, where the lines after it find them. -/
theorem arrX (c : Dev nD) :
    Pipeline.withArrays (cfgs 0).spec c (V0 m c) (fun w => (dats m 0 c).arrAt w (cfgs 0).N) (Proc.devRef .tc main_v21_0)
      = GX m c :=
  (Pipeline.withArrays_arr spec0 launch0.win.arr_inj c _ _ 2).trans (finalX m c)
theorem arrY (c : Dev nD) :
    Pipeline.withArrays (cfgs 0).spec c (V0 m c) (fun w => (dats m 0 c).arrAt w (cfgs 0).N) (Proc.devRef .tc main_v21_1)
      = GY m c :=
  (Pipeline.withArrays_arr spec0 launch0.win.arr_inj c _ _ 3).trans (finalY m c)
/-- The registration term is no array of the region: the lines after it find it as the region did. -/
theorem keptLR (c : Dev nD) :
    Pipeline.withArrays (cfgs 0).spec c (V0 m c) (fun w => (dats m 0 c).arrAt w (cfgs 0).N) (Proc.devRef .tc main_v20)
      = V m c main_v20 :=
  Pipeline.withArrays_of_ne _ c (V0 m c) _ main_v20 (by exact (by decide : ∀ w, Pipeline.arrRef spec0 w ≠ main_v20))

/-- The mean of means over the region's two arrays is the mean of means of the nearest-neighbour distances. -/
theorem mm_eq (c : Dev nD) :
    meanOfMeans (shapeCast S8x4096 (GX m c) shapeCasts_S8x32x128_S8x4096)
        (shapeCast S8x4096 (GY m c) shapeCasts_S8x1x4096_S8x4096)
      = meanOfMeans (NXY m c) (NYX m c) := by
  rw [reshapeX, reshapeY]
  rfl

set_option maxHeartbeats 4000000 in
theorem tail_v32 (c : Dev nD) :
    Pipeline.afterTail₀ cfgs (dats m) 0 (V0 m) [hostOps1] c main_v32 = meanOfMeans (NXY m c) (NYX m c) := by
  unfold Pipeline.afterTail₀
  show StableHlo.after hostOps1 _ (Proc.devRef .tc main_v32) = _
  after_results_simp
  rw [arrX, arrY]
  exact mm_eq m c

set_option maxHeartbeats 4000000 in
theorem tail_v33 (c : Dev nD) :
    Pipeline.afterTail₀ cfgs (dats m) 0 (V0 m) [hostOps1] c main_v33
      = addf (LR m c) (meanOfMeans (NXY m c) (NYX m c)) := by
  unfold Pipeline.afterTail₀
  show StableHlo.after hostOps1 _ (Proc.devRef .tc main_v33) = _
  after_results_simp
  rw [arrX, arrY, keptLR]
  exact congrArg (addf (LR m c)) (mm_eq m c)

set_option maxHeartbeats 4000000 in
theorem tail_v20 (c : Dev nD) :
    Pipeline.afterTail₀ cfgs (dats m) 0 (V0 m) [hostOps1] c main_v20 = LR m c := by
  unfold Pipeline.afterTail₀
  show StableHlo.after hostOps1 _ (Proc.devRef .tc main_v20) = _
  after_results_simp
  exact keptLR m c

/-- The run: the three results, and the arguments unchanged. -/
theorem run : θ_run defs (onTc (τ := τ) (main (F := Ideal))) ⟨m, fun _ => 0, ρ⟩ fun r => ∀ c : Dev nD,
      r.2.mem ((c.tc : Thread nD τ).loc main_v33) = addf (LR m c) (meanOfMeans (NXY m c) (NYX m c))
      ∧ r.2.mem ((c.tc : Thread nD τ).loc main_v20) = LR m c
      ∧ r.2.mem ((c.tc : Thread nD τ).loc main_v32) = meanOfMeans (NXY m c) (NYX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v33 (Pipeline.mem_restRefs_of main_v33 (by decide) (by decide))).trans (tail_v33 m c),
      ((h c).2 main_v20 (Pipeline.mem_restRefs_of main_v20 (by decide) (by decide))).trans (tail_v20 m c),
      ((h c).2 main_v32 (Pipeline.mem_restRefs_of main_v32 (by decide) (by decide))).trans (tail_v32 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 0).trans (((dats m 0 c).arrAt_in 0 rfl _).trans ((A_eq m c 0).trans (V_main_arg6 m c))),
      ((h c).1 1).trans (((dats m 0 c).arrAt_in 1 rfl _).trans ((A_eq m c 1).trans (V_main_arg7 m c)))⟩)
    (run_main m ρ)

end Cert.KernelIdeal.Run

end
-- ==== Proof.Bridge.lean ====
/-
  The two programs meet.  Both compute the registration term by the same operations of the same arguments; the reference's
  Chamfer term is the mean of means of its two arrays of nearest-neighbour distances, and so is the kernel's; so the three
  results agree, from memories that agree on the arguments.
-/
import proofs.«148160_j86792699118042_2_alg».proof.Proof.RefValue
import proofs.«148160_j86792699118042_2_alg».proof.Proof.KRun
import proofs.«148160_j86792699118042_2_alg».proof.Defs
import proofs.«148160_j86792699118042_2_alg».proof.Proof.Gen.Pre_finite_inputs

noncomputable section

namespace Cert.Proof.Bridge

open Idealize.ShloMosaic Idealize.ShloMosaic.TcCoe Idealize.SL.Sem Idealize.ShloMosaic.StableHlo Cert.Chamfer
open Cert.KernelIdeal.Run Cert.KernelIdeal.Inv

/-- The reference's Chamfer term: the mean of means of its nearest-neighbour distances. -/
theorem ref_mm (x6 x7 : (⟨Cert.ReferenceIdeal.S8x4096x3, .f32⟩ : BufTy).Contents (Elt Ideal)) :
    Cert.ReferenceIdeal.Read.val_main_v47 (F := Ideal) x6 x7
      = meanOfMeans (fun i => nearXY x6 x7 (i 0) (i 1)) (fun i => nearYX x6 x7 (i 0) (i 1)) :=
  (show Cert.ReferenceIdeal.Read.val_main_v47 (F := Ideal) x6 x7
      = meanOfMeans (Cert.ReferenceIdeal.Read.val_main_v37 (F := Ideal) x6 x7)
          (Cert.ReferenceIdeal.Read.val_main_v38 (F := Ideal) x6 x7) from rfl).trans
    (congrArg₂ meanOfMeans (Cert.ReferenceIdeal.RefValue.near_xy_eq x6 x7) (Cert.ReferenceIdeal.RefValue.near_yx_eq x6 x7))

set_option maxHeartbeats 4000000 in
/-- The kernel program's registration term is the reference's function of the same six arguments. -/
theorem LR_eq (m : (ℓ : Loc Cert.KernelIdeal.nD Cert.KernelIdeal.τ Cert.KernelIdeal.sig) → Buf (Elt Ideal) ℓ)
    (c : Dev Cert.KernelIdeal.nD) :
    LR m c = Cert.ReferenceIdeal.Read.val_main_v20 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  show StableHlo.after Cert.KernelIdeal.Gen.hostOps0 (fun b => m (c, b)) (Proc.devRef .tc Cert.KernelIdeal.main_v20) = _
  after_results_simp
  rfl

/-- The kernel's arrays of nearest-neighbour distances, over the launch contents of the two clouds. -/
theorem NXY_eq (m : (ℓ : Loc Cert.KernelIdeal.nD Cert.KernelIdeal.τ Cert.KernelIdeal.sig) → Buf (Elt Ideal) ℓ)
    (c : Dev Cert.KernelIdeal.nD) :
    NXY m c = fun i => nearXY (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) := by
  unfold NXY
  rw [show X m c = m ((c.tc : Thread Cert.KernelIdeal.nD Cert.KernelIdeal.τ).loc Cert.KernelIdeal.main_arg6) from Cert.KernelIdeal.Gen.V_main_arg6 m c,
    show Y m c = m ((c.tc : Thread Cert.KernelIdeal.nD Cert.KernelIdeal.τ).loc Cert.KernelIdeal.main_arg7) from Cert.KernelIdeal.Gen.V_main_arg7 m c]
theorem NYX_eq (m : (ℓ : Loc Cert.KernelIdeal.nD Cert.KernelIdeal.τ Cert.KernelIdeal.sig) → Buf (Elt Ideal) ℓ)
    (c : Dev Cert.KernelIdeal.nD) :
    NYX m c = fun i => nearYX (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) := by
  unfold NYX
  rw [show X m c = m ((c.tc : Thread Cert.KernelIdeal.nD Cert.KernelIdeal.τ).loc Cert.KernelIdeal.main_arg6) from Cert.KernelIdeal.Gen.V_main_arg6 m c,
    show Y m c = m ((c.tc : Thread Cert.KernelIdeal.nD Cert.KernelIdeal.τ).loc Cert.KernelIdeal.main_arg7) from Cert.KernelIdeal.Gen.V_main_arg7 m c]

/-- At the ideal instance the kernel program and the reference, from memories agreeing on the arguments, end with equal
    results: the registration term by the same operations, the Chamfer term by the monotone clamped root passing through
    the minima and the minimum over all columns being the running minimum over the tiles. -/
theorem algebraic : Cert.algebraic_KernelIdeal_ReferenceIdeal := by
  intro m ρ m' ρ' _ hagree
  refine ⟨fun c => addf (LR m c) (meanOfMeans (NXY m c) (NYX m c)), fun c => LR m c,
    fun c => meanOfMeans (NXY m c) (NYX m c), Cert.KernelIdeal.Run.run m ρ, ?_⟩
  refine (θ_run Cert.ReferenceIdeal.defs _ _).mono (fun _ h c => ?_) (Cert.ReferenceIdeal.Value.run (F := Ideal) m' ρ')
  obtain ⟨h48, h20, h47, hargs⟩ := h c
  obtain ⟨a0, a1, a2, a3, a4, a5, a6, a7⟩ := hagree c
  have e20 : Cert.ReferenceIdeal.Read.val_main_v20 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      = LR m c := by
    rw [a0, a1, a2, a3, a4, a5]
    exact (LR_eq m c).symm
  have e47 : Cert.ReferenceIdeal.Read.val_main_v47 (F := Ideal)
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      = meanOfMeans (NXY m c) (NYX m c) := by
    rw [a6, a7, ref_mm, NXY_eq, NYX_eq]
  refine ⟨h48.trans ?_, h20.trans ?_, h47.trans ?_, hargs⟩
  · rw [Cert.ReferenceIdeal.Read.val_main_v48_eq]
    unfold Cert.ReferenceIdeal.Read.val_main_v48
    rw [e20, e47]
  · exact (Cert.ReferenceIdeal.Read.val_main_v20_eq _ _ _ _ _ _).trans e20
  · exact (Cert.ReferenceIdeal.Read.val_main_v47_eq _ _).trans e47

end Cert.Proof.Bridge

end
-- ==== Proof.lean ====
/-
  The certificate of a Chamfer-distance kernel against its jnp reference, over the extended reals.

  Both programs return (L_R + L_CD, L_R, L_CD).  L_R, the registration term, is computed on the host by the same
  operations in both.  L_CD is the mean over 8 batches of the sum of two means over 4096 points: of the distance from each
  point of X to its nearest point of Y, and from each point of Y to its nearest point of X, distances being clamped roots
  `√(max(d², 0))` of squared distances written `|x|² + |y|² - 2·⟨x, y⟩`.

  The reference takes the clamped root of all 4096 × 4096 squared distances of a batch and then the two minima.  The
  kernel walks the columns in eight tiles of 512: per tile it takes the column minima of the squared distances and stores
  their clamped roots, and lowers a running row minimum kept in a scratch column, whose clamped roots it stores after the
  last tile.  The two agree because the clamped root is monotone and fixes +∞, so it passes through a minimum taken from
  +∞; because a minimum over 4096 columns is the running minimum over eight tiles; and because the inner product of two
  points of ℝ³ is the same three-term sum either way.  No law used needs the inputs to be finite.

  The three frames are the generated ones (the reference's is its generated run with the results dropped); the ideal
  pass rewrote nothing, so `preserves` is `True`.
-/
import proofs.«148160_j86792699118042_2_alg».proof.Defs
import proofs.«148160_j86792699118042_2_alg».proof.Proof.Gen.Kernel
import proofs.«148160_j86792699118042_2_alg».proof.Proof.Gen.Kernel.Frame
import proofs.«148160_j86792699118042_2_alg».proof.Proof.Gen.KernelIdeal
import proofs.«148160_j86792699118042_2_alg».proof.Proof.Gen.KernelIdeal.Frame
import proofs.«148160_j86792699118042_2_alg».proof.Proof.Gen.ReferenceIdeal
import proofs.«148160_j86792699118042_2_alg».proof.Proof.Gen.ReferenceIdeal.Run
import proofs.«148160_j86792699118042_2_alg».proof.Proof.Gen.ReferenceIdeal.Read
import proofs.«148160_j86792699118042_2_alg».proof.Proof.Gen.Pre_finite_inputs
import proofs.«148160_j86792699118042_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Bridge.algebraic⟩

end Cert.Proof

end
